-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S64 .f32) (main_arg6 : FVec F S64x10 .f32) (main_arg7 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x10 .f32) (main_arg7 : FVec F S10 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S1x10 : Shape := ⟨2, ![1, 10]⟩
abbrev S100000x10 : Shape := ⟨2, ![100000, 10]⟩
abbrev S10000x10 : Shape := ⟨2, ![10000, 10]⟩

abbrev nBuf : Space → Nat
  | .hbm => 60
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S32x64, .bf16⟩
  | .hbm, ⟨13, _⟩ => ⟨S64x64, .bf16⟩
  | .hbm, ⟨14, _⟩ => ⟨S64x10, .bf16⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x10, .f32⟩
  | .hbm, ⟨59, _⟩ => ⟨S100000x10, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .bf16⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .bf16⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x10, .bf16⟩
  | .local _ .vmem, ⟨21, _⟩ => ⟨S1x10, .f32⟩
  | .local _ .vmem, ⟨22, _⟩ => ⟨S10000x10, .f32⟩
  | .local _ .vmem, ⟨23, _⟩ => ⟨S10000x10, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x10 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S10_S1x10 : S10.ShapeCasts S1x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x10_S10000x10_1_0_0_1_n_n_wf : DotDims.WF S10000x64 S64x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .bf16 = 32 ∨ (Rect.block (s := S32x64) S32x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x10.size a ≤ S64x10.size a
  hwx2_2 : ∀ i : grid2.Coords, EltTy.bits .bf16 = 32 ∨ (Rect.block (s := S64x10) S64x10.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x10.size a ≤ S100000x10.size a
  hwx2_4 : ∀ i : grid2.Coords, EltTy.bits .f32 = 32 ∨ (Rect.block (s := S100000x10) S10000x10.size (cc2_transform_4 i) (hinb2_4 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S64x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S10000x10.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x10 : Shape := ⟨2, ![100000, 10]⟩
abbrev S1x10 : Shape := ⟨2, ![1, 10]⟩

abbrev nBuf : Space → Nat
  | .hbm => 80
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S100000x32, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S1x1600000, .i32⟩
  | .hbm, ⟨34, _⟩ => ⟨S1600000, .i32⟩
  | .hbm, ⟨35, _⟩ => ⟨S1x1600000, .i32⟩
  | .hbm, ⟨36, _⟩ => ⟨S1600000, .i32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S1x1600000, .i32⟩
  | .hbm, ⟨59, _⟩ => ⟨S1600000, .i32⟩
  | .hbm, ⟨60, _⟩ => ⟨S1x1600000, .i32⟩
  | .hbm, ⟨61, _⟩ => ⟨S1600000, .i32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .hbm, ⟨76, _⟩ => ⟨S100000x10, .f32⟩
  | .hbm, ⟨77, _⟩ => ⟨S1x10, .f32⟩
  | .hbm, ⟨78, _⟩ => ⟨S100000x10, .f32⟩
  | .hbm, ⟨79, _⟩ => ⟨S100000x10, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_4 : Ref sig .tc := ⟨.hbm, 62, rfl⟩
abbrev main_v44 : Ref sig .tc := ⟨.hbm, 63, rfl⟩
abbrev main_v45 : Ref sig .tc := ⟨.hbm, 64, rfl⟩
abbrev main_c_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.KernelRun.lean ====
/-
  The idealized kernel's run with its result named.

  @main is three stretches of host operations alternating with three kernel launches. Every weakly fair execution
  terminates without a fault; at the end each unscoped buffer of the device holds what the last boundary of that
  alternation leaves in it (`Gen.W6`: the host stretches applied in order, each launch's arrays replaced by what its grid
  points write back). Read at the result buffer this names the result; read at the argument buffers it gives back the
  launch contents.
-/
import proofs.«142381_j71949292143004_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.GinSpec.lean ====
/-
  One layer of the graph network, entry by entry, on the extended reals.

  A layer takes the node features `h` (an `[n, k]` matrix), the neighbour sums `a` (same shape), a weight matrix `W`
  (`[k, d]`) and a bias `b` (`d` numbers) to the `[n, d]` matrix whose entry `(p, q)` is
  `∑ c, (h (p, c) + a (p, c)) * W (c, q) + b q` (`affineAt`); the first two layers then take the maximum with `0`.
  Both programs compute exactly this: the host program by a `dot_general` of `h + a` with `W` plus the bias broadcast over
  the rows (`hostAffine_apply`), the kernel by a matrix product into a zero accumulator of the same two operands (their
  change of float format is the identity on the extended reals) plus the bias row broadcast (`kernelAffine_apply`).
  Neither reading uses more than the definition of the sum: no distributivity, so no finiteness.
-/
import Idealize.ShloMosaic.Lib.Pipeline.Value
import Idealize.ShloMosaic.Lib.ValueIdx
import Idealize.ShloMosaic.PureOps.Ideal.Laws
import proofs.«142381_j71949292143004_1_alg».proof.Proof.LibDenseLayers
import proofs.«142381_j71949292143004_1_alg».proof.Proof.LibHostMatmul

noncomputable section

namespace Cert.Gin

open Idealize.ShloMosaic Idealize.ShloMosaic.ValueIdx Idealize.ShloMosaic.DenseLayers

/-- Entry `(p, q)` of `(h + a) · W + b`. -/
def affineAt {n k d : ℕ} (h a : (⟨2, ![n, k]⟩ : Shape).Idx → EReal) (W : (⟨2, ![k, d]⟩ : Shape).Idx → EReal)
    (b : Fin d → EReal) (p : Fin n) (q : Fin d) : EReal :=
  (∑ c : Fin k, (h (ix2 p c) + a (ix2 p c)) * W (ix2 c q)) + b q

/-- The matrix `(h + a) · W + b`. -/
def affine {n k d : ℕ} (h a : (⟨2, ![n, k]⟩ : Shape).Idx → EReal) (W : (⟨2, ![k, d]⟩ : Shape).Idx → EReal)
    (b : Fin d → EReal) : (⟨2, ![n, d]⟩ : Shape).Idx → EReal :=
  fun i => affineAt h a W b (i 0) (i 1)

/-- The matrix `max ((h + a) · W + b) 0`. -/
def reluAffine {n k d : ℕ} (h a : (⟨2, ![n, k]⟩ : Shape).Idx → EReal) (W : (⟨2, ![k, d]⟩ : Shape).Idx → EReal)
    (b : Fin d → EReal) : (⟨2, ![n, d]⟩ : Shape).Idx → EReal :=
  fun i => max (affineAt h a W b (i 0) (i 1)) 0

theorem affine_ix2 {n k d : ℕ} (h a : (⟨2, ![n, k]⟩ : Shape).Idx → EReal) (W : (⟨2, ![k, d]⟩ : Shape).Idx → EReal)
    (b : Fin d → EReal) (p : Fin n) (q : Fin d) : affine h a W b (ix2 p q) = affineAt h a W b p q := rfl

theorem reluAffine_ix2 {n k d : ℕ} (h a : (⟨2, ![n, k]⟩ : Shape).Idx → EReal) (W : (⟨2, ![k, d]⟩ : Shape).Idx → EReal)
    (b : Fin d → EReal) (p : Fin n) (q : Fin d) : reluAffine h a W b (ix2 p q) = max (affineAt h a W b p q) 0 := rfl

/-- A vector of `d` numbers laid out as a `[1, d]` row and repeated over `n` rows reads, at `(p, q)`, its `q`-th number. -/
theorem biasRows_apply {α : Type} {n d : ℕ} (hb1 : (⟨1, ![d]⟩ : Shape).BroadcastsInDim ⟨2, ![1, d]⟩ ![1])
    (hb2 : (⟨2, ![1, d]⟩ : Shape).BroadcastsInDim ⟨2, ![n, d]⟩ ![0, 1]) (b : (⟨1, ![d]⟩ : Shape).Idx → α)
    (p : Fin n) (q : Fin d) :
    broadcastInDim ⟨2, ![n, d]⟩ ![0, 1] hb2 (broadcastInDim ⟨2, ![1, d]⟩ ![1] hb1 b) (ix2 p q) = b (ix1 q) := by
  refine (broadcastInDim_apply ![0, 1] hb2 _ (ix2 p q) (ix2 (0 : Fin 1) q) fun ax => ?_).trans ?_
  · match ax with
    | ⟨0, _⟩ => show 0 = if (1 : ℕ) = 1 then 0 else p.val; rw [if_pos rfl]
    | ⟨1, _⟩ =>
      show q.val = if d = 1 then 0 else q.val
      split
      · have := q.isLt; omega
      · rfl
  · refine broadcastInDim_apply ![1] hb1 b (ix2 (0 : Fin 1) q) (ix1 q) fun ax => ?_
    match ax with
    | ⟨0, _⟩ =>
      show q.val = if d = 1 then 0 else q.val
      split
      · have := q.isLt; omega
      · rfl

/-- A `[1, d]` row repeated over `n` rows reads, at `(p, q)`, the row's `q`-th entry. -/
theorem rowBroadcast_apply {α : Type} {n d : ℕ} (v : (⟨2, ![1, d]⟩ : Shape).Idx → α)
    (h : (⟨2, ![1, d]⟩ : Shape).Broadcasts ⟨2, ![n, d]⟩) (p : Fin n) (q : Fin d) :
    broadcastTo ⟨2, ![n, d]⟩ v h (ix2 p q) = v (ix2 (0 : Fin 1) q) := by
  refine broadcastTo_apply v h (ix2 p q) (ix2 (0 : Fin 1) q) fun ax => ?_
  match ax with
  | ⟨0, _⟩ => show 0 = if (1 : ℕ) = 1 then 0 else p.val; rw [if_pos rfl]
  | ⟨1, _⟩ =>
    show q.val = if d = 1 then 0 else q.val
    split
    · have := q.isLt; omega
    · rfl

/-- The host's layer before the maximum — `dot_general (h + a) W` plus the bias repeated over the rows — at an entry. -/
theorem hostAffine_apply {n k d : ℕ}
    (w : DotDims.WF ⟨2, ![n, k]⟩ ⟨2, ![k, d]⟩ ⟨2, ![n, d]⟩ [1] [0] [0] [1] [] [])
    (hb1 : (⟨1, ![d]⟩ : Shape).BroadcastsInDim ⟨2, ![1, d]⟩ ![1])
    (hb2 : (⟨2, ![1, d]⟩ : Shape).BroadcastsInDim ⟨2, ![n, d]⟩ ![0, 1])
    (h a : FVec Ideal ⟨2, ![n, k]⟩ .f32) (W : FVec Ideal ⟨2, ![k, d]⟩ .f32) (b : FVec Ideal ⟨1, ![d]⟩ .f32)
    (p : Fin n) (q : Fin d) :
    addf (Host.dotGeneral (⟨[1], [0], [0], [1], [], [], w⟩ : DotDims ⟨2, ![n, k]⟩ ⟨2, ![k, d]⟩ ⟨2, ![n, d]⟩) none (addf h a) W)
        (broadcastInDim ⟨2, ![n, d]⟩ ![0, 1] hb2 (broadcastInDim ⟨2, ![1, d]⟩ ![1] hb1 b)) (ix2 p q)
      = affineAt h a W (fun q => b (ix1 q)) p q := by
  rw [addf_apply, dotGeneral_rowcol_apply, biasRows_apply]
  rfl

/-- The kernel's layer before the maximum — the matrix product of `h + a` with `W` into a zero accumulator, plus the
    bias row repeated over the rows — at an entry. -/
theorem kernelAffine_apply {n k d : ℕ}
    (w : DotDims.WF ⟨2, ![n, k]⟩ ⟨2, ![k, d]⟩ ⟨2, ![n, d]⟩ [1] [0] [0] [1] [] [])
    (hbr : (⟨2, ![1, d]⟩ : Shape).Broadcasts ⟨2, ![n, d]⟩) (hlt : FTy.bf16.bits < FTy.f32.bits)
    (x0 x1 : FVec Ideal ⟨2, ![n, k]⟩ .f32) (x2 : FVec Ideal ⟨2, ![k, d]⟩ .bf16) (x3 : FVec Ideal ⟨2, ![1, d]⟩ .f32)
    (p : Fin n) (q : Fin d) :
    addf (matmul (⟨[1], [0], [0], [1], [], [], w⟩ : DotDims ⟨2, ![n, k]⟩ ⟨2, ![k, d]⟩ ⟨2, ![n, d]⟩) none
          (truncf .bf16 (addf x0 x1) hlt) x2 (constant (F := Ideal) ⟨2, ![n, d]⟩ .f32 0x00000000#32))
        (broadcastTo ⟨2, ![n, d]⟩ x3 hbr) (ix2 p q)
      = affineAt x0 x1 x2 (fun q => x3 (ix2 (0 : Fin 1) q)) p q := by
  rw [addf_apply, matmul_rowcol_zero_apply, rowBroadcast_apply]
  rfl

/-- An entry depends only on row `p` of `h` and `a`, column `q` of `W` and the `q`-th bias: the same numbers there,
    the same entry (a block's row `p` is the array's row `t · rows + p`). -/
theorem affineAt_congr {n n' k d : ℕ} {h a : (⟨2, ![n, k]⟩ : Shape).Idx → EReal} {h' a' : (⟨2, ![n', k]⟩ : Shape).Idx → EReal}
    {W W' : (⟨2, ![k, d]⟩ : Shape).Idx → EReal} {b b' : Fin d → EReal} {p : Fin n} {p' : Fin n'} {q : Fin d}
    (hh : ∀ c : Fin k, h (ix2 p c) = h' (ix2 p' c)) (ha : ∀ c : Fin k, a (ix2 p c) = a' (ix2 p' c))
    (hW : ∀ c : Fin k, W (ix2 c q) = W' (ix2 c q)) (hb : b q = b' q) :
    affineAt h a W b p q = affineAt h' a' W' b' p' q := by
  unfold affineAt
  rw [hb]
  exact congrArg (· + b' q) (Finset.sum_congr rfl fun c _ => by rw [hh c, ha c, hW c])

end Cert.Gin

end
-- ==== Proof.Region0.lean ====
/-
  The first layer's kernel, as one function of the arrays it finds.

  The grid has ten points; point `t` reads rows `t · 10000 … t · 10000 + 9999` of the features and of the neighbour sums,
  the whole weight matrix and the whole bias row, and writes the same rows of the result. What it writes at row `p` of
  its block, column `q`, is `max (∑ c, (x + a) (t · 10000 + p, c) * W (c, q) + b (0, q)) 0`: the matrix product into a zero
  accumulator read as a sum, the changes of float format the identity. The ten blocks tile the result's rows, so the
  result array ends as that function of `(row, column)` everywhere.
-/
import proofs.«142381_j71949292143004_1_alg».proof.Proof.Gen.KernelIdeal.Frame
import proofs.«142381_j71949292143004_1_alg».proof.Proof.GinSpec

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of a block, from the loaded blocks. -/
theorem pay_at (x0 x1 : FVec Ideal S10000x32 .f32) (x2 : FVec Ideal S32x64 .bf16) (x3 : FVec Ideal S1x64 .f32)
    (p : Fin 10000) (q : Fin 64) :
    k0_pay1 (F := Ideal) x0 x1 x2 x3 (ix2 p q)
      = max (Cert.Gin.affineAt x0 x1 x2 (fun q => x3 (ix2 (0 : Fin 1) q)) p q) 0 := by
  unfold k0_pay1
  rw [shapeCast_self, shapeCast_self, shapeCast_self]
  refine (maximumf_apply _ _ _).trans ?_
  refine congrArg₂ max ?_ ?_
  · exact Cert.Gin.kernelAffine_apply dot_S10000x32_S32x64_S10000x64_1_0_0_1_n_n_wf broadcasts_S1x64_S10000x64
      bitsLt_bf16_f32 x0 x1 x2 x3 p q
  · exact Ideal.ofBits_zero_f32

/-- The array the region leaves: `max ((x + a) · W + b) 0`, the bias read off its `[1, 64]` row. -/
def G (x a : S100000x32.Idx → EReal) (W : S32x64.Idx → EReal) (b : S1x64.Idx → EReal) : S100000x64.Idx → EReal :=
  Cert.Gin.reluAffine x a W (fun q => b (ix2 (0 : Fin 1) q))

/-- The printed index maps over the grid: the row-blocked windows sit at block `t`, the whole-array windows at block 0. -/
theorem idx_facts : ∀ t : Fin cfg0.N, t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block of rows is some point's. -/
theorem idx_onto : ∀ (r : Fin 10), ∃ t : Fin cfg0.N, win0_4.index t = ![r.val, 0] :=
  (by decide +kernel : ∀ (r : Fin 10), ∃ t : Fin grid0.N, win0_4.index t = ![r.val, 0])

/-- What point `t` writes back is block `t` of `G` of the arrays as the region finds them. -/
theorem flushed_eq (c : Dev nD) (t : Fin cfg0.N) :
    (dat0 V c).flushed 4 t
      = ((cfg0.win 4).blk t).view.read (Elt Ideal) (G (V c main_arg0) (V c main_v16) (V c main_v4) (V c main_v17)) := by
  show (cfg0.win 4).cut (grid0.coords t) ((dat0 V c).after 4 t) = _
  rw [after0_4]
  unfold out0_4
  rw [View.canon_unit_zero hz]
  simp only [View.ld_unit_zero (S := S10000x32) hz, View.ld_unit_zero (S := S32x64) hz, View.ld_unit_zero (S := S1x64) hz]
  obtain ⟨ht, e00, e01, e10, e11, e20, e21, e30, e31, e40, e41⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (iblk0 V c 3 t) (ix2 p q)
    = G (V c main_arg0) (V c main_v16) (V c main_v4) (V c main_v17) (((cfg0.win 4).blk t).view.emb (ix2 p q))
  have hrow : t.val * 10000 + p.val < 100000 := by have := p.isLt; omega
  have h4 : ((cfg0.win 4).blk t).view.emb (ix2 p q) = ix2 (⟨t.val * 10000 + p.val, hrow⟩ : Fin 100000) q := by
    funext a; apply Fin.ext
    match a with
    | ⟨0, _⟩ => show win0_4.index t (0 : Fin 2) * 10000 + 1 * p.val = t.val * 10000 + p.val; omega
    | ⟨1, _⟩ => show win0_4.index t (1 : Fin 2) * 64 + 1 * q.val = q.val; omega
  rw [h4]
  refine (pay_at _ _ _ _ p q).trans ?_
  show _ = max (Cert.Gin.affineAt (V c main_arg0) (V c main_v16) (V c main_v4) (fun q => V c main_v17 (ix2 (0 : Fin 1) q))
    (⟨t.val * 10000 + p.val, hrow⟩ : Fin 100000) q) 0
  refine congrArg (max · 0) (Cert.Gin.affineAt_congr (fun k => ?_) (fun k => ?_) (fun k => ?_) ?_)
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 32 + 1 * k.val = k.val; omega
  · show V c main_v16 (((cfg0.win 1).blk t).view.emb (ix2 p k)) = _
    refine congrArg (V c main_v16) (funext fun a => Fin.ext ?_)
    match a with
    | ⟨0, _⟩ => show win0_1.index t (0 : Fin 2) * 10000 + 1 * p.val = t.val * 10000 + p.val; omega
    | ⟨1, _⟩ => show win0_1.index t (1 : Fin 2) * 32 + 1 * k.val = k.val; omega
  · show V c main_v4 (((cfg0.win 2).blk t).view.emb (ix2 k q)) = _
    refine congrArg (V c main_v4) (funext fun a => Fin.ext ?_)
    match a with
    | ⟨0, _⟩ => show win0_2.index t (0 : Fin 2) * 32 + 1 * k.val = k.val; omega
    | ⟨1, _⟩ => show win0_2.index t (1 : Fin 2) * 64 + 1 * q.val = q.val; omega
  · show V c main_v17 (((cfg0.win 3).blk t).view.emb (ix2 (0 : Fin 1) q)) = _
    refine congrArg (V c main_v17) (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega

/-- An index of the result is in point `t`'s block iff each coordinate is in the block's range on its axis. -/
theorem mem_blk (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v18).slice (win0_4.rect t)).set ↔ _
  rw [View.set_slice_whole, Rect.mem_set_unit]
  exact Iff.rfl

/-- Row `r` lies in the block of point `r / 10000`: the blocks cover the result. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- The result array after the region: `G` of the arrays the region found. -/
theorem final (c : Dev nD) :
    (dat0 V c).arrAt 4 cfg0.N = G (V c main_arg0) (V c main_v16) (V c main_v4) (V c main_v17) :=
  (dat0 V c).arrAt_eq_of_cover 4 _ (fun t _ => flushed_eq V c t) cover

end Cert.KernelIdeal.Layer0

end
-- ==== Proof.Region1.lean ====
/-
  The second layer's kernel, as one function of the arrays it finds.

  The grid has ten points; point `t` reads rows `t · 10000 … t · 10000 + 9999` of the first layer's result and of its neighbour sums,
  the whole weight matrix and the whole bias row, and writes the same rows of the result. What it writes at row `p` of
  its block, column `q`, is `max (∑ c, (x + a) (t · 10000 + p, c) * W (c, q) + b (0, q)) 0`: the matrix product into a zero
  accumulator read as a sum, the changes of float format the identity. The ten blocks tile the result's rows, so the
  result array ends as that function of `(row, column)` everywhere.
-/
import proofs.«142381_j71949292143004_1_alg».proof.Proof.Gen.KernelIdeal.Frame
import proofs.«142381_j71949292143004_1_alg».proof.Proof.GinSpec

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of a block, from the loaded blocks. -/
theorem pay_at (x0 x1 : FVec Ideal S10000x64 .f32) (x2 : FVec Ideal S64x64 .bf16) (x3 : FVec Ideal S1x64 .f32)
    (p : Fin 10000) (q : Fin 64) :
    k1_pay1 (F := Ideal) x0 x1 x2 x3 (ix2 p q)
      = max (Cert.Gin.affineAt x0 x1 x2 (fun q => x3 (ix2 (0 : Fin 1) q)) p q) 0 := by
  unfold k1_pay1
  rw [shapeCast_self, shapeCast_self, shapeCast_self, shapeCast_self]
  refine (maximumf_apply _ _ _).trans ?_
  refine congrArg₂ max ?_ ?_
  · exact Cert.Gin.kernelAffine_apply dot_S10000x64_S64x64_S10000x64_1_0_0_1_n_n_wf broadcasts_S1x64_S10000x64
      bitsLt_bf16_f32 x0 x1 x2 x3 p q
  · exact Ideal.ofBits_zero_f32

/-- The array the region leaves: `max ((x + a) · W + b) 0`, the bias read off its `[1, 64]` row. -/
def G (x a : S100000x64.Idx → EReal) (W : S64x64.Idx → EReal) (b : S1x64.Idx → EReal) : S100000x64.Idx → EReal :=
  Cert.Gin.reluAffine x a W (fun q => b (ix2 (0 : Fin 1) q))

/-- The printed index maps over the grid: the row-blocked windows sit at block `t`, the whole-array windows at block 0. -/
theorem idx_facts : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block of rows is some point's. -/
theorem idx_onto : ∀ (r : Fin 10), ∃ t : Fin cfg1.N, win1_4.index t = ![r.val, 0] :=
  (by decide +kernel : ∀ (r : Fin 10), ∃ t : Fin grid1.N, win1_4.index t = ![r.val, 0])

/-- What point `t` writes back is block `t` of `G` of the arrays as the region finds them. -/
theorem flushed_eq (c : Dev nD) (t : Fin cfg1.N) :
    (dat1 V c).flushed 4 t
      = ((cfg1.win 4).blk t).view.read (Elt Ideal) (G (V c main_v18) (V c main_v28) (V c main_v5) (V c main_v29)) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x64) hz, View.ld_unit_zero (S := S1x64) hz]
  obtain ⟨ht, e00, e01, e10, e11, e20, e21, e30, e31, e40, e41⟩ := idx_facts t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (ix2 p q)
    = G (V c main_v18) (V c main_v28) (V c main_v5) (V c main_v29) (((cfg1.win 4).blk t).view.emb (ix2 p q))
  have hrow : t.val * 10000 + p.val < 100000 := by have := p.isLt; omega
  have h4 : ((cfg1.win 4).blk t).view.emb (ix2 p q) = ix2 (⟨t.val * 10000 + p.val, hrow⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  rw [h4]
  refine (pay_at _ _ _ _ p q).trans ?_
  show _ = max (Cert.Gin.affineAt (V c main_v18) (V c main_v28) (V c main_v5) (fun q => V c main_v29 (ix2 (0 : Fin 1) q))
    (⟨t.val * 10000 + p.val, hrow⟩ : Fin 100000) q) 0
  refine congrArg (max · 0) (Cert.Gin.affineAt_congr (fun k => ?_) (fun k => ?_) (fun k => ?_) ?_)
  · show V c main_v18 (((cfg1.win 0).blk t).view.emb (ix2 p k)) = _
    refine congrArg (V c main_v18) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_v28 (((cfg1.win 1).blk t).view.emb (ix2 p k)) = _
    refine congrArg (V c main_v28) (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * k.val = k.val; omega
  · show V c main_v5 (((cfg1.win 2).blk t).view.emb (ix2 k q)) = _
    refine congrArg (V c main_v5) (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · show V c main_v29 (((cfg1.win 3).blk t).view.emb (ix2 (0 : Fin 1) q)) = _
    refine congrArg (V c main_v29) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- An index of the result is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v30).slice (win1_4.rect t)).set ↔ _
  rw [View.set_slice_whole, Rect.mem_set_unit]
  exact Iff.rfl

/-- Row `r` lies in the block of point `r / 10000`: the blocks cover the result. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The result array after the region: `G` of the arrays the region found. -/
theorem final (c : Dev nD) :
    (dat1 V c).arrAt 4 cfg1.N = G (V c main_v18) (V c main_v28) (V c main_v5) (V c main_v29) :=
  (dat1 V c).arrAt_eq_of_cover 4 _ (fun t _ => flushed_eq V c t) cover

end Cert.KernelIdeal.Layer1

end
-- ==== Proof.Region2.lean ====
/-
  The last layer's kernel, as one function of the arrays it finds.

  The grid has ten points; point `t` reads rows `t · 10000 … t · 10000 + 9999` of the second layer's result and of its neighbour sums,
  the whole weight matrix and the whole bias row, and writes the same rows of the result. What it writes at row `p` of
  its block, column `q`, is `∑ c, (x + a) (t · 10000 + p, c) * W (c, q) + b (0, q)`: the matrix product into a zero
  accumulator read as a sum, the changes of float format the identity. The ten blocks tile the result's rows, so the
  result array ends as that function of `(row, column)` everywhere.
-/
import proofs.«142381_j71949292143004_1_alg».proof.Proof.Gen.KernelIdeal.Frame
import proofs.«142381_j71949292143004_1_alg».proof.Proof.GinSpec

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of a block, from the loaded blocks (this layer takes no maximum). -/
theorem pay_at (x0 x1 : FVec Ideal S10000x64 .f32) (x2 : FVec Ideal S64x10 .bf16) (x3 : FVec Ideal S1x10 .f32)
    (p : Fin 10000) (q : Fin 10) :
    k2_pay1 (F := Ideal) x0 x1 x2 x3 (ix2 p q)
      = Cert.Gin.affineAt x0 x1 x2 (fun q => x3 (ix2 (0 : Fin 1) q)) p q := by
  unfold k2_pay1
  rw [shapeCast_self, shapeCast_self, shapeCast_self, shapeCast_self]
  exact Cert.Gin.kernelAffine_apply dot_S10000x64_S64x10_S10000x10_1_0_0_1_n_n_wf broadcasts_S1x10_S10000x10
    bitsLt_bf16_f32 x0 x1 x2 x3 p q

/-- The array the region leaves: `(x + a) · W + b`, the bias read off its `[1, 10]` row. -/
def G (x a : S100000x64.Idx → EReal) (W : S64x10.Idx → EReal) (b : S1x10.Idx → EReal) : S100000x10.Idx → EReal :=
  Cert.Gin.affine x a W (fun q => b (ix2 (0 : Fin 1) q))

/-- The printed index maps over the grid: the row-blocked windows sit at block `t`, the whole-array windows at block 0. -/
theorem idx_facts : ∀ t : Fin cfg2.N, t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every block of rows is some point's. -/
theorem idx_onto : ∀ (r : Fin 10), ∃ t : Fin cfg2.N, win2_4.index t = ![r.val, 0] :=
  (by decide +kernel : ∀ (r : Fin 10), ∃ t : Fin grid2.N, win2_4.index t = ![r.val, 0])

/-- What point `t` writes back is block `t` of `G` of the arrays as the region finds them. -/
theorem flushed_eq (c : Dev nD) (t : Fin cfg2.N) :
    (dat2 V c).flushed 4 t
      = ((cfg2.win 4).blk t).view.read (Elt Ideal) (G (V c main_v30) (V c main_v40) (V c main_v6) (V c main_v41)) := by
  show (cfg2.win 4).cut (grid2.coords t) ((dat2 V c).after 4 t) = _
  rw [after2_4]
  unfold out2_4
  rw [View.canon_unit_zero hz]
  simp only [View.ld_unit_zero (S := S10000x64) hz, View.ld_unit_zero (S := S64x10) hz, View.ld_unit_zero (S := S1x10) hz]
  obtain ⟨ht, e00, e01, e10, e11, e20, e21, e30, e31, e40, e41⟩ := idx_facts t
  funext j
  obtain ⟨p, q, rfl⟩ : ∃ (p : Fin 10000) (q : Fin 10), j = ix2 p q := ⟨j 0, j 1, eq_ix2 j⟩
  show k2_pay1 (iblk2 V c 0 t) (iblk2 V c 1 t) (iblk2 V c 2 t) (iblk2 V c 3 t) (ix2 p q)
    = G (V c main_v30) (V c main_v40) (V c main_v6) (V c main_v41) (((cfg2.win 4).blk t).view.emb (ix2 p q))
  have hrow : t.val * 10000 + p.val < 100000 := by have := p.isLt; omega
  have h4 : ((cfg2.win 4).blk t).view.emb (ix2 p q) = ix2 (⟨t.val * 10000 + p.val, hrow⟩ : Fin 100000) q := by
    funext a; apply Fin.ext
    match a with
    | ⟨0, _⟩ => show win2_4.index t (0 : Fin 2) * 10000 + 1 * p.val = t.val * 10000 + p.val; omega
    | ⟨1, _⟩ => show win2_4.index t (1 : Fin 2) * 10 + 1 * q.val = q.val; omega
  rw [h4]
  refine (pay_at _ _ _ _ p q).trans ?_
  show _ = Cert.Gin.affineAt (V c main_v30) (V c main_v40) (V c main_v6) (fun q => V c main_v41 (ix2 (0 : Fin 1) q))
    (⟨t.val * 10000 + p.val, hrow⟩ : Fin 100000) q
  refine Cert.Gin.affineAt_congr (fun k => ?_) (fun k => ?_) (fun k => ?_) ?_
  · show V c main_v30 (((cfg2.win 0).blk t).view.emb (ix2 p k)) = _
    refine congrArg (V c main_v30) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · show V c main_v40 (((cfg2.win 1).blk t).view.emb (ix2 p k)) = _
    refine congrArg (V c main_v40) (funext fun a => Fin.ext ?_)
    match a with
    | ⟨0, _⟩ => show win2_1.index t (0 : Fin 2) * 10000 + 1 * p.val = t.val * 10000 + p.val; omega
    | ⟨1, _⟩ => show win2_1.index t (1 : Fin 2) * 64 + 1 * k.val = k.val; omega
  · show V c main_v6 (((cfg2.win 2).blk t).view.emb (ix2 k q)) = _
    refine congrArg (V c main_v6) (funext fun a => Fin.ext ?_)
    match a with
    | ⟨0, _⟩ => show win2_2.index t (0 : Fin 2) * 64 + 1 * k.val = k.val; omega
    | ⟨1, _⟩ => show win2_2.index t (1 : Fin 2) * 10 + 1 * q.val = q.val; omega
  · show V c main_v41 (((cfg2.win 3).blk t).view.emb (ix2 (0 : Fin 1) q)) = _
    refine congrArg (V c main_v41) (funext fun a => Fin.ext ?_)
    match a with
    | ⟨0, _⟩ => show win2_3.index t (0 : Fin 2) * 1 + 1 * 0 = 0; omega
    | ⟨1, _⟩ => show win2_3.index t (1 : Fin 2) * 10 + 1 * q.val = q.val; omega

/-- An index of the result is in point `t`'s block iff each coordinate is in the block's range on its axis. -/
theorem mem_blk (t : Fin cfg2.N) (i : S100000x10.Idx) :
    i ∈ ((cfg2.win 4).blk t).view.set ↔ ∀ a : Fin 2, win2_4.index t a * S10000x10.size a ≤ (i a).val
      ∧ (i a).val < win2_4.index t a * S10000x10.size a + S10000x10.size a := by
  show i ∈ ((View.whole main_v42).slice (win2_4.rect t)).set ↔ _
  rw [View.set_slice_whole, Rect.mem_set_unit]
  exact Iff.rfl

/-- Row `r` lies in the block of point `r / 10000`: the blocks cover the result. -/
theorem cover (i : S100000x10.Idx) :
    ∃ t : Fin cfg2.N, (cfg2.win 4).flush t = true ∧ i ∈ ((cfg2.win 4).blk t).view.set := by
  have hi0 : (i 0).val < 100000 := (i 0).isLt
  have hi1 : (i 1).val < 10 := (i 1).isLt
  obtain ⟨t, ht⟩ := idx_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 10 ≤ (i 1).val ∧ (i 1).val < win2_4.index t (1 : Fin 2) * 10 + 10; omega

/-- The result array after the region: `G` of the arrays the region found. -/
theorem final (c : Dev nD) :
    (dat2 V c).arrAt 4 cfg2.N = G (V c main_v30) (V c main_v40) (V c main_v6) (V c main_v41) :=
  (dat2 V c).arrAt_eq_of_cover 4 _ (fun t _ => flushed_eq V c t) cover

end Cert.KernelIdeal.Layer2

end
-- ==== Proof.Net.lean ====
/-
  The whole network as one function of the arguments, on the extended reals.

  The edge list `e` has two rows: the source and the destination node of each of the 1 600 000 edges. A source index
  below zero is counted from the end (`srcOf`). The neighbour sums of a feature matrix `h` gather row `src` of `h` for every
  edge and add it into row `dst` of a zero matrix (`agg32`, `agg64`): these two host operations are the same in both
  programs and are never opened here. A layer is `(h + agg h) · W + b`, entry by entry (`Cert.Gin.affineAt`), the
  first two followed by the maximum with zero; the network is the three layers in a row.
-/
import proofs.«142381_j71949292143004_1_alg».proof.Proof.Gen.ReferenceIdeal
import proofs.«142381_j71949292143004_1_alg».proof.Proof.GinSpec

noncomputable section

namespace Cert.Net

open Idealize.ShloMosaic Idealize.ShloMosaic.ValueIdx Cert.ReferenceIdeal Cert.ReferenceIdeal.Gen

/-- Row 0 of the edge list: each edge's source node, as stored. -/
def rawSrc (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Each edge's source node, an index below zero counted from the end of the 100 000 nodes. -/
def srcOf (e : (⟨S2x1600000, .i32⟩ : BufTy).Contents (Elt Ideal)) : (⟨S1600000, .i32⟩ : BufTy).Contents (Elt Ideal) :=
  select (cmpi .slt (rawSrc e) (broadcastInDim S1600000 ![] bcast_S_S1600000 (constantI S_ 32 0#32)))
    (addi (rawSrc e) (broadcastInDim S1600000 ![] bcast_S_S1600000 (constantI S_ 32 100000#32))) (rawSrc e)

/-- Row 1 of the edge list: each edge's destination node. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbour sums of 32-column features: for every edge, row `src` of `h` added into row `dst` of a zero matrix. -/
def agg32 (h : (⟨S100000x32, .f32⟩ : BufTy).Contents (Elt Ideal)) (e : (⟨S2x1600000, .i32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 (dstOf e))
    (Host.gather gather_S100000x32_S1600000x1_S1600000x32_1_0_n_n_0_1_132 h
      (broadcastInDim S1600000x1 ![0] bcast_S1600000_S1600000x1_0 (srcOf e)))

/-- The neighbour sums of 64-column features. -/
def agg64 (h : (⟨S100000x64, .f32⟩ : BufTy).Contents (Elt Ideal)) (e : (⟨S2x1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstOf e))
    (Host.gather gather_S100000x64_S1600000x1_S1600000x64_1_0_n_n_0_1_164 h
      (broadcastInDim S1600000x1 ![0] bcast_S1600000_S1600000x1_0 (srcOf e)))

/-- The first layer: `max ((x + agg x) · W + b) 0`. -/
def layer1 (x : (⟨S100000x32, .f32⟩ : BufTy).Contents (Elt Ideal)) (e : (⟨S2x1600000, .i32⟩ : BufTy).Contents (Elt Ideal))
    (W : (⟨S32x64, .f32⟩ : BufTy).Contents (Elt Ideal)) (b : (⟨S64, .f32⟩ : BufTy).Contents (Elt Ideal)) :
    (⟨S100000x64, .f32⟩ : BufTy).Contents (Elt Ideal) :=
  Cert.Gin.reluAffine x (agg32 x e) W (fun q => b (ix1 q))

/-- The second layer: `max ((h + agg h) · W + b) 0`. -/
def layer2 (h : (⟨S100000x64, .f32⟩ : BufTy).Contents (Elt Ideal)) (e : (⟨S2x1600000, .i32⟩ : BufTy).Contents (Elt Ideal))
    (W : (⟨S64x64, .f32⟩ : BufTy).Contents (Elt Ideal)) (b : (⟨S64, .f32⟩ : BufTy).Contents (Elt Ideal)) :
    (⟨S100000x64, .f32⟩ : BufTy).Contents (Elt Ideal) :=
  Cert.Gin.reluAffine h (agg64 h e) W (fun q => b (ix1 q))

/-- The last layer: `(h + agg h) · W + b`. -/
def layer3 (h : (⟨S100000x64, .f32⟩ : BufTy).Contents (Elt Ideal)) (e : (⟨S2x1600000, .i32⟩ : BufTy).Contents (Elt Ideal))
    (W : (⟨S64x10, .f32⟩ : BufTy).Contents (Elt Ideal)) (b : (⟨S10, .f32⟩ : BufTy).Contents (Elt Ideal)) :
    (⟨S100000x10, .f32⟩ : BufTy).Contents (Elt Ideal) :=
  Cert.Gin.affine h (agg64 h e) W (fun q => b (ix1 q))

/-- The network: the three layers in a row over one edge list. -/
def net (x : (⟨S100000x32, .f32⟩ : BufTy).Contents (Elt Ideal)) (e : (⟨S2x1600000, .i32⟩ : BufTy).Contents (Elt Ideal))
    (W1 : (⟨S32x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (W3 : (⟨S64x10, .f32⟩ : BufTy).Contents (Elt Ideal)) (b3 : (⟨S10, .f32⟩ : BufTy).Contents (Elt Ideal)) :
    (⟨S100000x10, .f32⟩ : BufTy).Contents (Elt Ideal) :=
  layer3 (layer2 (layer1 x e W1 b1) e W2 b2) e W3 b3

end Cert.Net

end
-- ==== Proof.KernelValue.lean ====
/-
  The idealized kernel's result is the network of `Cert.Net.net` at its arguments.

  The contents of the device's buffers are followed through @main's six boundaries. The first host stretch computes the
  edge rows, the weights in their narrower float format (the identity on the extended reals), the first bias as a row,
  and the neighbour sums of the input features. Each launch leaves its layer of the arrays it found (the three region
  modules); each later host stretch computes the neighbour sums of the layer before it and the next bias row; the edge
  rows and the remaining weights are carried unchanged across every boundary, since no later operation and no launch
  writes them. At the last boundary the result buffer holds the third layer of the second of the first.
-/
import proofs.«142381_j71949292143004_1_alg».proof.Proof.Gen.KernelIdeal.Frame
import proofs.«142381_j71949292143004_1_alg».proof.Proof.Region0
import proofs.«142381_j71949292143004_1_alg».proof.Proof.Region1
import proofs.«142381_j71949292143004_1_alg».proof.Proof.Region2
import proofs.«142381_j71949292143004_1_alg».proof.Proof.Net
import Idealize.ShloMosaic.Lib.ValueLayout
import Idealize.ShloMosaic.Lib.StableHlo.Run

set_option maxHeartbeats 1000000

noncomputable section

namespace Cert.KernelIdeal.Through

open Idealize.ShloMosaic Idealize.ShloMosaic.TcCoe Idealize.ShloMosaic.ValueIdx Idealize.SL.Sem
open Idealize.ShloMosaic.StableHlo
open Cert.KernelIdeal Cert.KernelIdeal.Gen

/-! ## A launch's layer is the network's layer

The launch reads its weights in the narrower float format and its bias as a `[1, d]` row: on the extended reals the
first is the identity and the row's `q`-th entry is the bias's `q`-th number. -/

theorem bridge1 (x : FVec Ideal S100000x32 .f32) (e : (⟨S2x1600000, .i32⟩ : BufTy).Contents (Elt Ideal))
    (W : FVec Ideal S32x64 .f32) (b : FVec Ideal S64 .f32) :
    Layer0.G x (Cert.Net.agg32 x e) (truncf .bf16 W bitsLt_bf16_f32) (shapeCast S1x64 b shapeCasts_S64_S1x64)
      = Cert.Net.layer1 x e W b := by
  unfold Layer0.G Cert.Net.layer1
  have hb : (fun q : Fin 64 => shapeCast S1x64 b shapeCasts_S64_S1x64 (ix2 (0 : Fin 1) q)) = fun q => b (ix1 q) :=
    funext fun q => shapeCast_a_1a_apply b shapeCasts_S64_S1x64 0 q
  exact congrArg (Cert.Gin.reluAffine x (Cert.Net.agg32 x e) W) hb

theorem bridge2 (h : FVec Ideal S100000x64 .f32) (e : (⟨S2x1600000, .i32⟩ : BufTy).Contents (Elt Ideal))
    (W : FVec Ideal S64x64 .f32) (b : FVec Ideal S64 .f32) :
    Layer1.G h (Cert.Net.agg64 h e) (truncf .bf16 W bitsLt_bf16_f32) (shapeCast S1x64 b shapeCasts_S64_S1x64)
      = Cert.Net.layer2 h e W b := by
  unfold Layer1.G Cert.Net.layer2
  have hb : (fun q : Fin 64 => shapeCast S1x64 b shapeCasts_S64_S1x64 (ix2 (0 : Fin 1) q)) = fun q => b (ix1 q) :=
    funext fun q => shapeCast_a_1a_apply b shapeCasts_S64_S1x64 0 q
  exact congrArg (Cert.Gin.reluAffine h (Cert.Net.agg64 h e) W) hb

theorem bridge3 (h : FVec Ideal S100000x64 .f32) (e : (⟨S2x1600000, .i32⟩ : BufTy).Contents (Elt Ideal))
    (W : FVec Ideal S64x10 .f32) (b : FVec Ideal S10 .f32) :
    Layer2.G h (Cert.Net.agg64 h e) (truncf .bf16 W bitsLt_bf16_f32) (shapeCast S1x10 b shapeCasts_S10_S1x10)
      = Cert.Net.layer3 h e W b := by
  unfold Layer2.G Cert.Net.layer3
  have hb : (fun q : Fin 10 => shapeCast S1x10 b shapeCasts_S10_S1x10 (ix2 (0 : Fin 1) q)) = fun q => b (ix1 q) :=
    funext fun q => shapeCast_a_1a_apply b shapeCasts_S10_S1x10 0 q
  exact congrArg (Cert.Gin.affine h (Cert.Net.agg64 h e) W) hb

variable (m : (ℓ : Loc nD τ sig) → Buf (Elt Ideal) ℓ) (ρ : Dev nD → PrngReg)

/-! The arguments' launch contents on core `c`, each at its array type. -/
abbrev a0 (c : Dev nD) : FVec Ideal S100000x32 .f32 := m ((c : Thread nD τ).loc main_arg0)
abbrev a1 (c : Dev nD) : (⟨S2x1600000, .i32⟩ : BufTy).Contents (Elt Ideal) := m ((c : Thread nD τ).loc main_arg1)
abbrev a2 (c : Dev nD) : FVec Ideal S32x64 .f32 := m ((c : Thread nD τ).loc main_arg2)
abbrev a3 (c : Dev nD) : FVec Ideal S64 .f32 := m ((c : Thread nD τ).loc main_arg3)
abbrev a4 (c : Dev nD) : FVec Ideal S64x64 .f32 := m ((c : Thread nD τ).loc main_arg4)
abbrev a5 (c : Dev nD) : FVec Ideal S64 .f32 := m ((c : Thread nD τ).loc main_arg5)
abbrev a6 (c : Dev nD) : FVec Ideal S64x10 .f32 := m ((c : Thread nD τ).loc main_arg6)
abbrev a7 (c : Dev nD) : FVec Ideal S10 .f32 := m ((c : Thread nD τ).loc main_arg7)

/-! ## After the first host stretch -/

theorem w1_arg0 (c : Dev nD) : W1 m ρ c (Proc.devRef .tc main_arg0) = a0 m c := by
  show StableHlo.after hostOps0 (W0 m ρ c) (Proc.devRef .tc main_arg0) = _
  dsimp only [hostOps0]
  after_results_simp <;> rfl
theorem w1_v16 (c : Dev nD) : W1 m ρ c (Proc.devRef .tc main_v16) = Cert.Net.agg32 (a0 m c) (a1 m c) := by
  show StableHlo.after hostOps0 (W0 m ρ c) (Proc.devRef .tc main_v16) = _
  dsimp only [hostOps0]
  after_results_simp <;> rfl
theorem w1_v4 (c : Dev nD) : W1 m ρ c (Proc.devRef .tc main_v4) = (truncf .bf16 (a2 m c) bitsLt_bf16_f32) := by
  show StableHlo.after hostOps0 (W0 m ρ c) (Proc.devRef .tc main_v4) = _
  dsimp only [hostOps0]
  after_results_simp <;> rfl
theorem w1_v17 (c : Dev nD) : W1 m ρ c (Proc.devRef .tc main_v17) = shapeCast S1x64 (a3 m c) shapeCasts_S64_S1x64 := by
  show StableHlo.after hostOps0 (W0 m ρ c) (Proc.devRef .tc main_v17) = _
  dsimp only [hostOps0]
  after_results_simp <;> rfl
theorem w1_v1 (c : Dev nD) : W1 m ρ c (Proc.devRef .tc main_v1) = Cert.Net.rawSrc (a1 m c) := by
  show StableHlo.after hostOps0 (W0 m ρ c) (Proc.devRef .tc main_v1) = _
  dsimp only [hostOps0]
  after_results_simp <;> rfl
theorem w1_v3 (c : Dev nD) : W1 m ρ c (Proc.devRef .tc main_v3) = Cert.Net.dstOf (a1 m c) := by
  show StableHlo.after hostOps0 (W0 m ρ c) (Proc.devRef .tc main_v3) = _
  dsimp only [hostOps0]
  after_results_simp <;> rfl
theorem w1_v5 (c : Dev nD) : W1 m ρ c (Proc.devRef .tc main_v5) = (truncf .bf16 (a4 m c) bitsLt_bf16_f32) := by
  show StableHlo.after hostOps0 (W0 m ρ c) (Proc.devRef .tc main_v5) = _
  dsimp only [hostOps0]
  after_results_simp <;> rfl
theorem w1_v6 (c : Dev nD) : W1 m ρ c (Proc.devRef .tc main_v6) = (truncf .bf16 (a6 m c) bitsLt_bf16_f32) := by
  show StableHlo.after hostOps0 (W0 m ρ c) (Proc.devRef .tc main_v6) = _
  dsimp only [hostOps0]
  after_results_simp <;> rfl
theorem w1_arg5 (c : Dev nD) : W1 m ρ c (Proc.devRef .tc main_arg5) = a5 m c := by
  show StableHlo.after hostOps0 (W0 m ρ c) (Proc.devRef .tc main_arg5) = _
  dsimp only [hostOps0]
  after_results_simp <;> rfl
theorem w1_arg7 (c : Dev nD) : W1 m ρ c (Proc.devRef .tc main_arg7) = a7 m c := by
  show StableHlo.after hostOps0 (W0 m ρ c) (Proc.devRef .tc main_arg7) = _
  dsimp only [hostOps0]
  after_results_simp <;> rfl

/-! ## After the first launch -/

theorem w2_v18 (c : Dev nD) : W2 m ρ c (Proc.devRef .tc main_v18) = (Cert.Net.layer1 (a0 m c) (a1 m c) (a2 m c) (a3 m c)) := by
  refine (W2_arr m ρ c 4).trans ?_
  rw [Layer0.final (V1 m ρ) c]
  show Layer0.G (W1 m ρ c (Proc.devRef .tc main_arg0)) (W1 m ρ c (Proc.devRef .tc main_v16))
    (W1 m ρ c (Proc.devRef .tc main_v4)) (W1 m ρ c (Proc.devRef .tc main_v17)) = _
  rw [w1_arg0, w1_v16, w1_v4, w1_v17]
  exact bridge1 _ _ _ _
theorem w2_v1 (c : Dev nD) : W2 m ρ c (Proc.devRef .tc main_v1) = Cert.Net.rawSrc (a1 m c) :=
  (W2_of_ne m ρ c main_v1 (by decide)).trans (w1_v1 m ρ c)
theorem w2_v3 (c : Dev nD) : W2 m ρ c (Proc.devRef .tc main_v3) = Cert.Net.dstOf (a1 m c) :=
  (W2_of_ne m ρ c main_v3 (by decide)).trans (w1_v3 m ρ c)
theorem w2_v5 (c : Dev nD) : W2 m ρ c (Proc.devRef .tc main_v5) = (truncf .bf16 (a4 m c) bitsLt_bf16_f32) :=
  (W2_of_ne m ρ c main_v5 (by decide)).trans (w1_v5 m ρ c)
theorem w2_v6 (c : Dev nD) : W2 m ρ c (Proc.devRef .tc main_v6) = (truncf .bf16 (a6 m c) bitsLt_bf16_f32) :=
  (W2_of_ne m ρ c main_v6 (by decide)).trans (w1_v6 m ρ c)
theorem w2_arg5 (c : Dev nD) : W2 m ρ c (Proc.devRef .tc main_arg5) = a5 m c :=
  (W2_of_ne m ρ c main_arg5 (by decide)).trans (w1_arg5 m ρ c)
theorem w2_arg7 (c : Dev nD) : W2 m ρ c (Proc.devRef .tc main_arg7) = a7 m c :=
  (W2_of_ne m ρ c main_arg7 (by decide)).trans (w1_arg7 m ρ c)

/-! ## After the second host stretch -/

theorem w3_v18 (c : Dev nD) : W3 m ρ c (Proc.devRef .tc main_v18) = (Cert.Net.layer1 (a0 m c) (a1 m c) (a2 m c) (a3 m c)) := by
  show StableHlo.after hostOps1 (W2 m ρ c) (Proc.devRef .tc main_v18) = _
  dsimp only [hostOps1]
  after_results_simp
  exact w2_v18 m ρ c
theorem w3_v28 (c : Dev nD) : W3 m ρ c (Proc.devRef .tc main_v28) = Cert.Net.agg64 (Cert.Net.layer1 (a0 m c) (a1 m c) (a2 m c) (a3 m c)) (a1 m c) := by
  show StableHlo.after hostOps1 (W2 m ρ c) (Proc.devRef .tc main_v28) = _
  dsimp only [hostOps1]
  after_results_simp
  rw [w2_v18, w2_v1, w2_v3]
  rfl
theorem w3_v5 (c : Dev nD) : W3 m ρ c (Proc.devRef .tc main_v5) = (truncf .bf16 (a4 m c) bitsLt_bf16_f32) := by
  show StableHlo.after hostOps1 (W2 m ρ c) (Proc.devRef .tc main_v5) = _
  dsimp only [hostOps1]
  after_results_simp
  exact w2_v5 m ρ c
theorem w3_v29 (c : Dev nD) : W3 m ρ c (Proc.devRef .tc main_v29) = shapeCast S1x64 (a5 m c) shapeCasts_S64_S1x64 := by
  show StableHlo.after hostOps1 (W2 m ρ c) (Proc.devRef .tc main_v29) = _
  dsimp only [hostOps1]
  after_results_simp
  rw [w2_arg5]
  rfl
theorem w3_v1 (c : Dev nD) : W3 m ρ c (Proc.devRef .tc main_v1) = Cert.Net.rawSrc (a1 m c) := by
  show StableHlo.after hostOps1 (W2 m ρ c) (Proc.devRef .tc main_v1) = _
  dsimp only [hostOps1]
  after_results_simp
  exact w2_v1 m ρ c
theorem w3_v3 (c : Dev nD) : W3 m ρ c (Proc.devRef .tc main_v3) = Cert.Net.dstOf (a1 m c) := by
  show StableHlo.after hostOps1 (W2 m ρ c) (Proc.devRef .tc main_v3) = _
  dsimp only [hostOps1]
  after_results_simp
  exact w2_v3 m ρ c
theorem w3_v6 (c : Dev nD) : W3 m ρ c (Proc.devRef .tc main_v6) = (truncf .bf16 (a6 m c) bitsLt_bf16_f32) := by
  show StableHlo.after hostOps1 (W2 m ρ c) (Proc.devRef .tc main_v6) = _
  dsimp only [hostOps1]
  after_results_simp
  exact w2_v6 m ρ c
theorem w3_arg7 (c : Dev nD) : W3 m ρ c (Proc.devRef .tc main_arg7) = a7 m c := by
  show StableHlo.after hostOps1 (W2 m ρ c) (Proc.devRef .tc main_arg7) = _
  dsimp only [hostOps1]
  after_results_simp
  exact w2_arg7 m ρ c

/-! ## After the second launch -/

theorem w4_v30 (c : Dev nD) : W4 m ρ c (Proc.devRef .tc main_v30) = (Cert.Net.layer2 (Cert.Net.layer1 (a0 m c) (a1 m c) (a2 m c) (a3 m c)) (a1 m c) (a4 m c) (a5 m c)) := by
  refine (W4_arr m ρ c 4).trans ?_
  rw [Layer1.final (V3 m ρ) c]
  show Layer1.G (W3 m ρ c (Proc.devRef .tc main_v18)) (W3 m ρ c (Proc.devRef .tc main_v28))
    (W3 m ρ c (Proc.devRef .tc main_v5)) (W3 m ρ c (Proc.devRef .tc main_v29)) = _
  rw [w3_v18, w3_v28, w3_v5, w3_v29]
  exact bridge2 _ _ _ _
theorem w4_v1 (c : Dev nD) : W4 m ρ c (Proc.devRef .tc main_v1) = Cert.Net.rawSrc (a1 m c) :=
  (W4_of_ne m ρ c main_v1 (by decide)).trans (w3_v1 m ρ c)
theorem w4_v3 (c : Dev nD) : W4 m ρ c (Proc.devRef .tc main_v3) = Cert.Net.dstOf (a1 m c) :=
  (W4_of_ne m ρ c main_v3 (by decide)).trans (w3_v3 m ρ c)
theorem w4_v6 (c : Dev nD) : W4 m ρ c (Proc.devRef .tc main_v6) = (truncf .bf16 (a6 m c) bitsLt_bf16_f32) :=
  (W4_of_ne m ρ c main_v6 (by decide)).trans (w3_v6 m ρ c)
theorem w4_arg7 (c : Dev nD) : W4 m ρ c (Proc.devRef .tc main_arg7) = a7 m c :=
  (W4_of_ne m ρ c main_arg7 (by decide)).trans (w3_arg7 m ρ c)

/-! ## After the third host stretch -/

theorem w5_v30 (c : Dev nD) : W5 m ρ c (Proc.devRef .tc main_v30) = (Cert.Net.layer2 (Cert.Net.layer1 (a0 m c) (a1 m c) (a2 m c) (a3 m c)) (a1 m c) (a4 m c) (a5 m c)) := by
  show StableHlo.after hostOps2 (W4 m ρ c) (Proc.devRef .tc main_v30) = _
  dsimp only [hostOps2]
  after_results_simp
  exact w4_v30 m ρ c
theorem w5_v40 (c : Dev nD) : W5 m ρ c (Proc.devRef .tc main_v40) = Cert.Net.agg64 (Cert.Net.layer2 (Cert.Net.layer1 (a0 m c) (a1 m c) (a2 m c) (a3 m c)) (a1 m c) (a4 m c) (a5 m c)) (a1 m c) := by
  show StableHlo.after hostOps2 (W4 m ρ c) (Proc.devRef .tc main_v40) = _
  dsimp only [hostOps2]
  after_results_simp
  rw [w4_v30, w4_v1, w4_v3]
  rfl
theorem w5_v6 (c : Dev nD) : W5 m ρ c (Proc.devRef .tc main_v6) = (truncf .bf16 (a6 m c) bitsLt_bf16_f32) := by
  show StableHlo.after hostOps2 (W4 m ρ c) (Proc.devRef .tc main_v6) = _
  dsimp only [hostOps2]
  after_results_simp
  exact w4_v6 m ρ c
theorem w5_v41 (c : Dev nD) : W5 m ρ c (Proc.devRef .tc main_v41) = shapeCast S1x10 (a7 m c) shapeCasts_S10_S1x10 := by
  show StableHlo.after hostOps2 (W4 m ρ c) (Proc.devRef .tc main_v41) = _
  dsimp only [hostOps2]
  after_results_simp
  rw [w4_arg7]
  rfl

/-! ## After the third launch -/

/-- The result buffer at the last boundary holds the network at the arguments. -/
theorem result_eq (c : Dev nD) :
    W6 m ρ c (Proc.devRef .tc main_v42)
      = Cert.Net.net (a0 m c) (a1 m c) (a2 m c) (a3 m c) (a4 m c) (a5 m c) (a6 m c) (a7 m c) := by
  refine (W6_arr m ρ c 4).trans ?_
  rw [Layer2.final (V5 m ρ) c]
  show Layer2.G (W5 m ρ c (Proc.devRef .tc main_v30)) (W5 m ρ c (Proc.devRef .tc main_v40))
    (W5 m ρ c (Proc.devRef .tc main_v6)) (W5 m ρ c (Proc.devRef .tc main_v41)) = _
  rw [w5_v30, w5_v40, w5_v6, w5_v41]
  exact bridge3 _ _ _ _

end Cert.KernelIdeal.Through

end
-- ==== Proof.RefValue.lean ====
/-
  The reference's result is the network of `Cert.Net.net` at its arguments.

  Each of the reference's layers is a `dot_general` of `h + agg h` with the weights, plus the bias repeated over the
  rows, and for the first two the maximum with a zero matrix. Entry by entry that is the layer of `Cert.Gin`: the
  `dot_general` is the sum over the contracted coordinate of the products, the repeated bias reads its `q`-th number, the
  zero matrix reads zero. The reference's composed term is then the three layers in a row, with the neighbour sums left
  as they are written.
-/
import proofs.«142381_j71949292143004_1_alg».proof.Proof.Gen.ReferenceIdeal.Run
import proofs.«142381_j71949292143004_1_alg».proof.Proof.Net

noncomputable section

namespace Cert.ReferenceIdeal.RefValue

open Idealize.ShloMosaic Idealize.ShloMosaic.TcCoe Idealize.ShloMosaic.ValueIdx Idealize.SL.Sem
open Idealize.ShloMosaic.DenseLayers
open Cert.ReferenceIdeal Cert.ReferenceIdeal.Gen Cert.ReferenceIdeal.Value

/-- The first host layer with its maximum, entry by entry. -/
theorem hostLayer1 (h a : FVec Ideal S100000x32 .f32) (W : FVec Ideal S32x64 .f32) (b : FVec Ideal S64 .f32) :
    maximumf (addf (Host.dotGeneral (F := Ideal) dot_S100000x32_S32x64_S100000x64_1_0_0_1_n_n none (addf h a) W)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Cert.Gin.reluAffine h a W (fun q => b (ix1 q)) := by
  funext i
  obtain ⟨p, q, rfl⟩ : ∃ (p : Fin 100000) (q : Fin 64), i = ix2 p q := ⟨i 0, i 1, eq_ix2 i⟩
  refine (maximumf_apply _ _ _).trans ?_
  rw [Cert.Gin.reluAffine_ix2]
  refine congrArg₂ max ?_ ?_
  · exact Cert.Gin.hostAffine_apply dot_S100000x32_S32x64_S100000x64_1_0_0_1_n_n_wf bcast_S64_S1x64_1
      bcast_S1x64_S100000x64_0_1 h a W b p q
  · exact (broadcastInDim_scalar_constant_apply _ bcast_S_S100000x64 _).trans Ideal.ofBits_zero_f32

/-- The second host layer with its maximum, entry by entry. -/
theorem hostLayer2 (h a : FVec Ideal S100000x64 .f32) (W : FVec Ideal S64x64 .f32) (b : FVec Ideal S64 .f32) :
    maximumf (addf (Host.dotGeneral (F := Ideal) dot_S100000x64_S64x64_S100000x64_1_0_0_1_n_n none (addf h a) W)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Cert.Gin.reluAffine h a W (fun q => b (ix1 q)) := by
  funext i
  obtain ⟨p, q, rfl⟩ : ∃ (p : Fin 100000) (q : Fin 64), i = ix2 p q := ⟨i 0, i 1, eq_ix2 i⟩
  refine (maximumf_apply _ _ _).trans ?_
  rw [Cert.Gin.reluAffine_ix2]
  refine congrArg₂ max ?_ ?_
  · exact Cert.Gin.hostAffine_apply dot_S100000x64_S64x64_S100000x64_1_0_0_1_n_n_wf bcast_S64_S1x64_1
      bcast_S1x64_S100000x64_0_1 h a W b p q
  · exact (broadcastInDim_scalar_constant_apply _ bcast_S_S100000x64 _).trans Ideal.ofBits_zero_f32

/-- The last host layer (no maximum), entry by entry. -/
theorem hostLayer3 (h a : FVec Ideal S100000x64 .f32) (W : FVec Ideal S64x10 .f32) (b : FVec Ideal S10 .f32) :
    addf (Host.dotGeneral (F := Ideal) dot_S100000x64_S64x10_S100000x10_1_0_0_1_n_n none (addf h a) W)
        (broadcastInDim S100000x10 ![0, 1] bcast_S1x10_S100000x10_0_1 (broadcastInDim S1x10 ![1] bcast_S10_S1x10_1 b))
      = Cert.Gin.affine h a W (fun q => b (ix1 q)) := by
  funext i
  obtain ⟨p, q, rfl⟩ : ∃ (p : Fin 100000) (q : Fin 10), i = ix2 p q := ⟨i 0, i 1, eq_ix2 i⟩
  rw [Cert.Gin.affine_ix2]
  exact Cert.Gin.hostAffine_apply dot_S100000x64_S64x10_S100000x10_1_0_0_1_n_n_wf bcast_S10_S1x10_1
    bcast_S1x10_S100000x10_0_1 h a W b p q

/-- The reference's three layers as it writes them, over the neighbour sums of `Cert.Net`. -/
def hostL1 (x : FVec Ideal S100000x32 .f32) (e : (⟨S2x1600000, .i32⟩ : BufTy).Contents (Elt Ideal)) (W : FVec Ideal S32x64 .f32) (b : FVec Ideal S64 .f32) :
    FVec Ideal S100000x64 .f32 :=
  maximumf (addf (Host.dotGeneral (F := Ideal) dot_S100000x32_S32x64_S100000x64_1_0_0_1_n_n none (addf x (Cert.Net.agg32 x e)) W)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

def hostL2 (h : FVec Ideal S100000x64 .f32) (e : (⟨S2x1600000, .i32⟩ : BufTy).Contents (Elt Ideal)) (W : FVec Ideal S64x64 .f32) (b : FVec Ideal S64 .f32) :
    FVec Ideal S100000x64 .f32 :=
  maximumf (addf (Host.dotGeneral (F := Ideal) dot_S100000x64_S64x64_S100000x64_1_0_0_1_n_n none (addf h (Cert.Net.agg64 h e)) W)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

def hostL3 (h : FVec Ideal S100000x64 .f32) (e : (⟨S2x1600000, .i32⟩ : BufTy).Contents (Elt Ideal)) (W : FVec Ideal S64x10 .f32) (b : FVec Ideal S10 .f32) :
    FVec Ideal S100000x10 .f32 :=
  addf (Host.dotGeneral (F := Ideal) dot_S100000x64_S64x10_S100000x10_1_0_0_1_n_n none (addf h (Cert.Net.agg64 h e)) W)
    (broadcastInDim S100000x10 ![0, 1] bcast_S1x10_S100000x10_0_1 (broadcastInDim S1x10 ![1] bcast_S10_S1x10_1 b))

theorem hostL1_eq (x : FVec Ideal S100000x32 .f32) (e : (⟨S2x1600000, .i32⟩ : BufTy).Contents (Elt Ideal)) (W : FVec Ideal S32x64 .f32) (b : FVec Ideal S64 .f32) :
    hostL1 x e W b = Cert.Net.layer1 x e W b := by
  unfold hostL1 Cert.Net.layer1
  exact hostLayer1 x (Cert.Net.agg32 x e) W b

theorem hostL2_eq (h : FVec Ideal S100000x64 .f32) (e : (⟨S2x1600000, .i32⟩ : BufTy).Contents (Elt Ideal)) (W : FVec Ideal S64x64 .f32) (b : FVec Ideal S64 .f32) :
    hostL2 h e W b = Cert.Net.layer2 h e W b := by
  unfold hostL2 Cert.Net.layer2
  exact hostLayer2 h (Cert.Net.agg64 h e) W b

theorem hostL3_eq (h : FVec Ideal S100000x64 .f32) (e : (⟨S2x1600000, .i32⟩ : BufTy).Contents (Elt Ideal)) (W : FVec Ideal S64x10 .f32) (b : FVec Ideal S10 .f32) :
    hostL3 h e W b = Cert.Net.layer3 h e W b := by
  unfold hostL3 Cert.Net.layer3
  exact hostLayer3 h (Cert.Net.agg64 h e) W b

/-- The reference's composed term is its three layers in a row (the same operations, grouped). -/
theorem res_layers (m : (ℓ : Loc nD τ sig) → Buf (Elt Ideal) ℓ) (c : Dev nD) :
    res_main_v58 (F := Ideal) m c
      = hostL3 (hostL2 (hostL1 (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg1)) (m ((c.tc : Thread nD τ).loc main_arg4)) (m ((c.tc : Thread nD τ).loc main_arg5)))
        (m ((c.tc : Thread nD τ).loc main_arg1)) (m ((c.tc : Thread nD τ).loc main_arg6)) (m ((c.tc : Thread nD τ).loc main_arg7)) := by
  unfold res_main_v58 hostL3 hostL2 hostL1 Cert.Net.agg64 Cert.Net.agg32 Cert.Net.srcOf Cert.Net.dstOf Cert.Net.rawSrc
  rfl

/-- The reference's result is the network at its arguments. -/
theorem res_eq (m : (ℓ : Loc nD τ sig) → Buf (Elt Ideal) ℓ) (c : Dev nD) :
    res_main_v58 (F := Ideal) m c
      = Cert.Net.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [res_layers, hostL1_eq, hostL2_eq, hostL3_eq]
  rfl

end Cert.ReferenceIdeal.RefValue

end
-- ==== Proof.lean ====
/-
  A three-layer graph network with sum aggregation, as a kernel and as its reference, are equal on the extended reals.

  Both programs compute, three times over, `h ↦ (h + agg h) · W + b` — `agg h` the neighbour sums of `h` along one fixed
  edge list, gathered and scatter-added by the same two host operations in both — with the maximum with zero after the
  first two. The kernel splits each layer's matrix product into ten blocks of 10 000 rows and runs it on the device,
  the operands in a narrower float format; the reference takes one whole `dot_general`. On the extended reals the change of
  format is the identity and both products are the same finite sum over the contracted coordinate, entry by entry, so the
  two results are one function of the arguments (`Cert.Net.net`). No step uses a law that fails at the infinities, so
  the precondition (finite inputs) is never opened. The word-level kernel differs from its idealization in no operation:
  there is nothing to preserve.
-/
import proofs.«142381_j71949292143004_1_alg».proof.Defs
import proofs.«142381_j71949292143004_1_alg».proof.Proof.Gen.Kernel
import proofs.«142381_j71949292143004_1_alg».proof.Proof.Gen.Kernel.Frame
import proofs.«142381_j71949292143004_1_alg».proof.Proof.Gen.KernelIdeal
import proofs.«142381_j71949292143004_1_alg».proof.Proof.Gen.KernelIdeal.Frame
import proofs.«142381_j71949292143004_1_alg».proof.Proof.Gen.ReferenceIdeal
import proofs.«142381_j71949292143004_1_alg».proof.Proof.Gen.Pre_finite_inputs
import proofs.«142381_j71949292143004_1_alg».proof.Proof.Gen.ReferenceIdeal.Run
import proofs.«142381_j71949292143004_1_alg».proof.Proof.KernelRun
import proofs.«142381_j71949292143004_1_alg».proof.Proof.KernelValue
import proofs.«142381_j71949292143004_1_alg».proof.Proof.RefValue

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the network at those arguments. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Through.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
